-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S16 : Shape := ⟨1, ![16]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x4096x256 .f32) (main_arg1 : FVec F S16x4096x256 .f32) (main_arg2 : IVec S16 32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  let main_c_2 : IVec S_ 32 := constantI S_ 32 4096#32
  let main_v9 : IVec S16 32 := broadcastInDim S16 ![] bcast_S_S16 main_c_2
  let main_v10 : IVec S16 1 := cmpi .sle main_arg2 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v8 main_v11
  main_v12
-- ==== Kernel.lean ====
abbrev S16x4096x256 : Shape := ⟨3, ![16, 4096, 256]⟩
abbrev S16 : Shape := ⟨1, ![16]⟩
abbrev S_ : Shape := ⟨0, ![]⟩
abbrev S16x1 : Shape := ⟨2, ![16, 1]⟩
abbrev S8x1 : Shape := ⟨2, ![8, 1]⟩
abbrev S8x512x256 : Shape := ⟨3, ![8, 512, 256]⟩
abbrev S8x512x128 : Shape := ⟨3, ![8, 512, 128]⟩
abbrev S8x512 : Shape := ⟨2, ![8, 512]⟩
abbrev S8 : Shape := ⟨1, ![8]⟩
abbrev S1 : Shape := ⟨1, ![1]⟩

abbrev nBuf : Space → Nat
  | .hbm => 19
  | .vmem => 8
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x1, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .local _ .vmem, ⟨0, _⟩ => ⟨S8x1, .i32⟩
  | .local _ .vmem, ⟨1, _⟩ => ⟨S8x512x256, .f32⟩
  | .local _ .vmem, ⟨2, _⟩ => ⟨S8x512x256, .f32⟩
  | .local _ .vmem, ⟨3, _⟩ => ⟨S8x512x256, .f32⟩
  | .local _ .vmem, ⟨4, _⟩ => ⟨S8x512x256, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_17 : BitVec 32 := 0#32
  let v57 : BitVec 1 := Scalar.cmpi .ne v56 c0_i32_17
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16 : S_.BroadcastsInDim S16 (![] : Fin 0 → Fin S16.rank)
  shapeCasts_S16_S16x1 : S16.ShapeCasts S16x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512x256_S8x512x256_0_0_0 : ∀ a, (![0, 0, 0] : Fin 3 → Nat) a + S8x512x256.size a ≤ S8x512x256.size a
  h_S8x512x256 : 0 < S8x512x256.numel
  slices_S8x512x256_o0_0_0_S8x512x128 : S8x512x256.Slices ![0, 0, 0] S8x512x128
  slices_S8x512x256_o0_0_128_S8x512x128 : S8x512x256.Slices ![0, 0, 128] S8x512x128
  reduces_S8x512x128_S8x512 : S8x512x128.Reduces [2] S8x512
  iota_S8x512_d1_w32 : S8x512.Iotas .tc 32 [1]
  broadcasts_S8x1_S8x512 : S8x1.Broadcasts S8x512
  natLt_1_32 : 1 < 32
  reduces_S8x512_S8 : S8x512.Reduces [1] S8
  shapeCasts_S8_S8x1 : S8.ShapeCasts S8x1
  shapeCasts_S16x1_S16 : S16x1.ShapeCasts S16
  reducesTo_S16_S_d0 : S16.ReducesTo [0] S_
  h_S_ : 0 < S_.numel
  bcast_S_S1 : S_.BroadcastsInDim S1 (![] : Fin 0 → Fin S1.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x1.size a ≤ S16x1.size a
  hwx0_0 : ∀ i : grid0.Coords, EltTy.bits .i32 = 32 ∨ (Rect.block (s := S16x1) S8x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S16x4096x256.size a
  hwx0_1 : ∀ i : grid0.Coords, EltTy.bits .f32 = 32 ∨ (Rect.block (s := S16x4096x256) S8x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x256.size a ≤ S16x4096x256.size a
  hwx0_2 : ∀ i : grid0.Coords, EltTy.bits .f32 = 32 ∨ (Rect.block (s := S16x4096x256) S8x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)

variable [Facts₀]

abbrev win0_0 : Pipeline.Window sig grid0 :=
  Pipeline.Window.ofSpec (Memref.whole main_v1) S8x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x4096x256 : Shape := ⟨3, ![16, 4096, 256]⟩
abbrev S16 : Shape := ⟨1, ![16]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S_ : Shape := ⟨0, ![]⟩
abbrev S1 : Shape := ⟨1, ![1]⟩

abbrev nBuf : Space → Nat
  | .hbm => 52
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16, .i32⟩
  | .hbm, ⟨3, _⟩ => ⟨S4096, .i32⟩
  | .hbm, ⟨4, _⟩ => ⟨S1x4096, .i32⟩
  | .hbm, ⟨5, _⟩ => ⟨S16x1, .i32⟩
  | .hbm, ⟨6, _⟩ => ⟨S16x4096, .i32⟩
  | .hbm, ⟨7, _⟩ => ⟨S16x4096, .i32⟩
  | .hbm, ⟨8, _⟩ => ⟨S16x4096, .i1⟩
  | .hbm, ⟨9, _⟩ => ⟨S16x4096, .f32⟩
  | .hbm, ⟨10, _⟩ => ⟨S16x4096x256, .f32⟩
  | .hbm, ⟨11, _⟩ => ⟨S_, .f32⟩
  | .hbm, ⟨12, _⟩ => ⟨S16x4096, .f32⟩
  | .hbm, ⟨13, _⟩ => ⟨S16x4096x256, .f32⟩
  | .hbm, ⟨14, _⟩ => ⟨S_, .f32⟩
  | .hbm, ⟨15, _⟩ => ⟨S16x4096, .f32⟩
  | .hbm, ⟨16, _⟩ => ⟨S16x4096, .f32⟩
  | .hbm, ⟨17, _⟩ => ⟨S_, .f32⟩
  | .hbm, ⟨18, _⟩ => ⟨S16x4096, .f32⟩
  | .hbm, ⟨19, _⟩ => ⟨S16x4096, .f32⟩
  | .hbm, ⟨20, _⟩ => ⟨S16x4096x256, .f32⟩
  | .hbm, ⟨21, _⟩ => ⟨S_, .f32⟩
  | .hbm, ⟨22, _⟩ => ⟨S16x4096, .f32⟩
  | .hbm, ⟨23, _⟩ => ⟨S16x4096, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S16x4096, .f32⟩
  | .hbm, ⟨28, _⟩ => ⟨S16x4096, .f32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16, .f32⟩
  | .hbm, ⟨33, _⟩ => ⟨S16x4096, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  reducesTo_S16x4096x256_S16x4096_d2 : S16x4096x256.ReducesTo [2] S16x4096
  h_S_ : 0 < S_.numel
  bcast_S_S16x4096 : S_.BroadcastsInDim S16x4096 (![] : Fin 0 → Fin S16x4096.rank)
  bcast_S_S16 : S_.BroadcastsInDim S16 (![] : Fin 0 → Fin S16.rank)
  reducesTo_S16x4096_S16_d1 : S16x4096.ReducesTo [1] S16
  reducesTo_S16_S_d0 : S16.ReducesTo [0] S_
  bcast_S_S1 : S_.BroadcastsInDim S1 (![] : Fin 0 → Fin S1.rank)

variable [Facts₀]

class Facts : Prop extends Facts₀ where

variable [Facts]
-- ==== Proof.Pieces.lean ====
/-
  What one run of the kernel body leaves behind, as values of its inputs.

  The body keeps a running sum `acc` (8 numbers, one per sequence of the block) in a buffer of its own. At the first
  row tile of a sequence block it stores zeros there and then adds the tile's masked cosine sum; at every later tile it adds
  the tile's sum to what the tile before left; at the last tile it also writes the block's eight losses, computed from the
  sum it has just stored. In terms of the body's named values: `k0_pay5` is the tile's cosines (from the two blocks of rows),
  `k0_pay6` the rows' positions, `k0_pay2` the old sum plus the masked row sum, `k0_pay4` the zeros, `k0_pay3` the
  losses from the counts and the final sum.
-/
import proofs.«149728_j35150012350738_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the old sum plus this tile's masked cosine sum. -/
theorem sout_B (c : Dev nD) (i : grid0.Coords) (arg2 : Memref sig .tc .vmem S8x1 .i32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : ¬cond0_1 i)
    (x0 : Vec F S8x1 .i32) (x1 : Vec F S8x512x256 .f32) (x2 : Vec F S8x512x256 .f32) (xs0 : Vec F S8x1 .f32) :
    sout0_B_0 c i arg2 harg2 arg3 harg3 arg4 harg4 arg5 harg5 arg6 harg6 hc0 hc1 x0 x1 x2 xs0
      = k0_pay2 (k0_pay5 x1 x2) (k0_pay6 i) x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S8x1) hz2, View.ld_unit_zero (S := S8x512x256) hz3]

/-- The first tile leaves zero plus its masked cosine sum: the zeros it stored are what it reads back. -/
theorem sout_A (c : Dev nD) (i : grid0.Coords) (arg2 : Memref sig .tc .vmem S8x1 .i32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x1 .f32) (harg5 : arg5.IsWhole) (arg6 : Memref sig .tc .vmem S8x1 .f32) (harg6 : arg6.IsWhole) (hc0 : cond0_0 i) (hc1 : ¬cond0_1 i)
    (x0 : Vec F S8x1 .i32) (x1 : Vec F S8x512x256 .f32) (x2 : Vec F S8x512x256 .f32) :
    sout0_A_0 c i arg2 harg2 arg3 harg3 arg4 harg4 arg5 harg5 arg6 harg6 hc0 hc1 x0 x1 x2
      = k0_pay2 (k0_pay5 x1 x2) (k0_pay6 i) x0 (k0_pay4 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread,
    View.ld_unit_zero (S := S8x1) hz2, View.ld_unit_zero (S := S8x512x256) hz3]

/-- The last tile leaves the old sum plus its masked cosine sum, as a middle tile does. -/
theorem sout_C (c : Dev nD) (i : grid0.Coords) (arg2 : Memref sig .tc .vmem S8x1 .i32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i)
    (x0 : Vec F S8x1 .i32) (x1 : Vec F S8x512x256 .f32) (x2 : Vec F S8x512x256 .f32) (xs0 : Vec F S8x1 .f32) :
    sout0_C_0 c i arg2 harg2 arg3 harg3 arg4 harg4 arg5 harg5 arg6 harg6 hc0 hc1 x0 x1 x2 xs0
      = k0_pay2 (k0_pay5 x1 x2) (k0_pay6 i) x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S8x1) hz2, View.ld_unit_zero (S := S8x512x256) hz3]

/-- The last tile writes the losses computed from the counts and the sum it has just stored. -/
theorem out_C (c : Dev nD) (i : grid0.Coords) (arg2 : Memref sig .tc .vmem S8x1 .i32) (harg2 : arg2.IsWhole) (arg3 : Memref sig .tc .vmem S8x512x256 .f32) (harg3 : arg3.IsWhole) (arg4 : Memref sig .tc .vmem S8x512x256 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i)
    (x0 : Vec F S8x1 .i32) (x1 : Vec F S8x512x256 .f32) (x2 : Vec F S8x512x256 .f32) (xs0 : Vec F S8x1 .f32) :
    out0_C_3 c i arg2 harg2 arg3 harg3 arg4 harg4 arg5 harg5 arg6 harg6 hc0 hc1 x0 x1 x2 xs0
      = k0_pay3 x0 (k0_pay2 (k0_pay5 x1 x2) (k0_pay6 i) x0 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S8x1) _ hz2]
  simp only [View.readAt_eq_ld, harg2.read_unread, harg3.read_unread, harg4.read_unread, harg6.read_unread,
    View.ld_unit_zero (S := S8x1) hz2, View.ld_unit_zero (S := S8x512x256) hz3]

end Cert.KernelIdeal.Pieces

end
-- ==== Proof.LibClampWords.lean ====
/-
  Signed 32-bit words clamped to a range `[0, N]`, as a masked mean over `N` rows uses them.

  For a word `L` whose signed value is at most `N`, the clamp `min N (max 0 L)` changes nothing that the mean
  looks at: a position `p` with `0 ≤ p` lies below the clamped word exactly when it lies below `L`; the clamped
  word is positive exactly when `L` is; and where `L` is positive the clamp is `L` itself, so that
  `max (clamp L) 1`, taken after the conversion to a real number, is the conversion of `max L 1`.
  Also: a position written `tile · n + i` in 32-bit arithmetic is the word of the number `n · tile + i`.
-/
import Idealize.ShloMosaic.PureOps.Ideal

namespace ClampWords

open Idealize.ShloMosaic

/-- `clip(L, 0, N)` as jax spells it: the maximum with the lower bound, then the minimum with the upper. -/
def clamp (N L : BitVec 32) : BitVec 32 := IntOp.minsi N (IntOp.maxsi 0#32 L)

theorem slt_iff (x y : BitVec 32) : x.slt y = true ↔ x.toInt < y.toInt := by
  simp [BitVec.slt]

theorem toInt_zero32 : (0#32 : BitVec 32).toInt = 0 := by decide

/-- Where `L` is positive and at most `N`, the clamp is `L`. -/
theorem clamp_of_pos (N L : BitVec 32) (h0 : 0 < L.toInt) (h1 : L.toInt ≤ N.toInt) : clamp N L = L := by
  have hm : IntOp.maxsi 0#32 L = L := by
    unfold IntOp.maxsi
    rw [if_neg]
    rw [slt_iff, toInt_zero32]; omega
  unfold clamp
  rw [hm]
  unfold IntOp.minsi
  rw [if_neg]
  rw [slt_iff]; omega

/-- Where `L` is not positive (and `N` is not negative), the clamp's signed value is zero. -/
theorem clamp_toInt_of_nonpos (N L : BitVec 32) (hN : 0 ≤ N.toInt) (h0 : L.toInt ≤ 0) : (clamp N L).toInt = 0 := by
  have hm : (IntOp.maxsi 0#32 L).toInt = 0 := by
    unfold IntOp.maxsi
    by_cases h : L.slt 0#32 = true
    · rw [if_pos h]; exact toInt_zero32
    · rw [if_neg h]
      rw [slt_iff, toInt_zero32] at h; omega
  unfold clamp IntOp.minsi
  by_cases h : N.slt (IntOp.maxsi 0#32 L) = true
  · rw [slt_iff, hm] at h; omega
  · rw [if_neg h]; exact hm

/-- A nonnegative position lies below the clamped word exactly when it lies below `L` (for `L ≤ N`). -/
theorem slt_clamp (N L p : BitVec 32) (hN : 0 ≤ N.toInt) (h1 : L.toInt ≤ N.toInt) (hp : 0 ≤ p.toInt) :
    p.slt (clamp N L) = p.slt L := by
  by_cases h0 : 0 < L.toInt
  · rw [clamp_of_pos N L h0 h1]
  · have hc := clamp_toInt_of_nonpos N L hN (by omega)
    have e1 : p.slt (clamp N L) = false := by
      rw [Bool.eq_false_iff]; intro h; rw [slt_iff, hc] at h; omega
    have e2 : p.slt L = false := by
      rw [Bool.eq_false_iff]; intro h; rw [slt_iff] at h; omega
    rw [e1, e2]

/-- The comparison words: `p < clamp L` and `p < L` are one bit. -/
theorem cmpi_slt_clamp (N L p : BitVec 32) (hN : 0 ≤ N.toInt) (h1 : L.toInt ≤ N.toInt) (hp : 0 ≤ p.toInt) :
    IntOp.cmpi .slt p (clamp N L) = IntOp.cmpi .slt p L := by
  unfold IntOp.cmpi
  simp only [slt_clamp N L p hN h1 hp]

/-- `clamp L > 0` and `L > 0` are one bit. -/
theorem cmpi_sgt_clamp (N L : BitVec 32) (hN : 0 ≤ N.toInt) (h1 : L.toInt ≤ N.toInt) :
    IntOp.cmpi .sgt (clamp N L) 0#32 = IntOp.cmpi .sgt L 0#32 := by
  unfold IntOp.cmpi
  simp only [slt_clamp N L 0#32 hN h1 (by rw [toInt_zero32])]

/-- `L > 0` as a bit is one exactly when the signed value is positive. -/
theorem cmpi_sgt_zero_eq_one_iff (L : BitVec 32) : IntOp.cmpi .sgt L 0#32 = 1#1 ↔ 0 < L.toInt := by
  unfold IntOp.cmpi
  by_cases h : (0#32 : BitVec 32).slt L = true
  · have h' := h
    rw [slt_iff, toInt_zero32] at h'
    simp only [h, BitVec.ofBool_true]
    exact ⟨fun _ => h', fun _ => rfl⟩
  · have h' := h
    rw [slt_iff, toInt_zero32] at h'
    have hf : (0#32 : BitVec 32).slt L = false := by simpa using h
    simp only [hf, BitVec.ofBool_false]
    exact ⟨fun e => absurd e (by decide), fun e => absurd e h'⟩

/-- Where `L` is positive, `max L 1` (signed) has `L`'s signed value. -/
theorem maxsi_one_toInt_of_pos (L : BitVec 32) (h0 : 0 < L.toInt) : (IntOp.maxsi L 1#32).toInt = L.toInt := by
  unfold IntOp.maxsi
  have h1 : (1#32 : BitVec 32).toInt = 1 := by decide
  by_cases h : (1#32 : BitVec 32).slt L = true
  · rw [if_pos h]
  · rw [if_neg h]
    rw [slt_iff, h1] at h
    rw [h1]; omega

/-- The word of a position `n · tile + i` computed in 32-bit arithmetic as `tile · n + i`. -/
theorem pos_word (tile i n : ℕ) :
    IntOp.addi (IntOp.muli (BitVec.ofNat 32 tile) (BitVec.ofNat 32 n)) (BitVec.ofNat 32 i) = BitVec.ofNat 32 (n * tile + i) := by
  show BitVec.ofNat 32 tile * BitVec.ofNat 32 n + BitVec.ofNat 32 i = _
  rw [← BitVec.ofNat_mul, ← BitVec.ofNat_add, Nat.mul_comm]

/-- A number below `2^31` is its word's signed value. -/
theorem toInt_ofNat_small (k : ℕ) (hk : k < 2 ^ 31) : (BitVec.ofNat 32 k).toInt = (k : ℤ) := by
  rw [BitVec.toInt_eq_toNat_cond, BitVec.toNat_ofNat]
  have h2 : k % 2 ^ 32 = k := Nat.mod_eq_of_lt (by omega)
  rw [h2, if_pos (by omega)]

end ClampWords
-- ==== Proof.Spec.lean ====
/-
  The mean cosine loss over ragged sequences, as one function on the extended reals.

  For `B = 16` sequences of `N = 4096` rows of `D = 256` numbers, two arrays `x` and `y` and a row count `L b` per
  sequence: the cosine of rows `x[b, n]` and `y[b, n]` is their dot product over the product of their norms, each norm
  raised to at least `ε`; a sequence's mean is the sum of the cosines of its first `L b` rows (a row counts when its number
  `n` is below `L b` as signed 32-bit words) divided by `max (L b) 1`; its loss is `1 - mean` where `L b > 0` and
  `0` elsewhere; the result is the sum of the sixteen losses over sixteen.

  One program clamps `L b` to `[0, N]` first and takes the maximum with one after converting to a real number
  (`perSeqClamped`); for `L b ≤ N` that changes nothing (`perSeqClamped_clamp`): the row test, the sign test and the
  positive value are those of `L b` (LibClampWords).
-/
import Idealize.ShloMosaic.PureOps.Ideal.Laws
import Idealize.ShloMosaic.Lib.ValueIdx
import proofs.«149728_j35150012350738_2_alg».proof.Proof.LibClampWords

noncomputable section

namespace MeanCos

open Idealize.ShloMosaic Idealize.ShloMosaic.ValueIdx ClampWords

/-- The shapes, spelt literally. -/
abbrev SX : Shape := ⟨3, ![16, 4096, 256]⟩
abbrev SL : Shape := ⟨1, ![16]⟩

/-- The norm floor `ε`, as the programs' literal (`f32(1e-8)`); the same word on both sides, never evaluated. -/
def eps : EReal := Ideal.ofBits .f32 0x322BCC77#32
/-- The literal `1.0`. -/
def one : EReal := Ideal.ofBits .f32 0x3F800000#32
/-- The literal `0.0`. -/
def zero : EReal := Ideal.ofBits .f32 0x00000000#32

theorem one_eq : one = 1 := IdealRules.sign_bit.ideal_onePat .f32
theorem zero_eq : zero = 0 := Ideal.ofBits_zero_f32

/-- The cosine of two rows of 256 numbers, each norm raised to at least `ε`. -/
def cosRow (s c : Fin 256 → EReal) : EReal :=
  Ideal.div (∑ d, s d * c d) (max (Ideal.sqrt (∑ d, s d * s d)) eps * max (Ideal.sqrt (∑ d, c d * c d)) eps)

/-- The cosine of rows `(b, n)` of the two arrays. -/
def cosAt (x y : SX.Idx → EReal) (b : Fin 16) (n : Fin 4096) : EReal :=
  cosRow (fun d => x (ix3 b n d)) (fun d => y (ix3 b n d))

/-- Whether position `p` lies below the count `L` (signed words), as the number 1 or 0. -/
def below (p L : BitVec 32) : EReal := (((IntOp.cmpi .slt p L).toNat : ℝ) : EReal)

/-- The sum of a sequence's cosines over the rows below its count. -/
def maskedSum (x y : SX.Idx → EReal) (L : BitVec 32) (b : Fin 16) : EReal :=
  ∑ n : Fin 4096, cosAt x y b n * below (BitVec.ofNat 32 n.val) L

/-- A sequence's loss: `1 - sum / max L 1` where `L > 0`, else `0`; the maximum taken on the words. -/
def perSeq (x y : SX.Idx → EReal) (L : BitVec 32) (b : Fin 16) : EReal :=
  Scalar.select (IntOp.cmpi .sgt L 0#32)
    (one - Ideal.div (maskedSum x y L b) (((IntOp.maxsi L 1#32).toInt : ℝ) : EReal)) zero

/-- The same with the maximum taken after the conversion to a real number. -/
def perSeqClamped (x y : SX.Idx → EReal) (L : BitVec 32) (b : Fin 16) : EReal :=
  Scalar.select (IntOp.cmpi .sgt L 0#32)
    (one - Ideal.div (maskedSum x y L b) (max ((L.toInt : ℝ) : EReal) one)) zero

/-- The last steps both programs share: the sixteen losses summed (from a zero), divided by sixteen, as a one-element
    array. The shape facts are arguments so that either program's own spelling fits. -/
def finish (hb : (⟨0, ![]⟩ : Shape).BroadcastsInDim ⟨1, ![1]⟩ (![] : Fin 0 → Fin (⟨1, ![1]⟩ : Shape).rank))
    (hr : SL.ReducesTo [0] ⟨0, ![]⟩) (h0 : 0 < (⟨0, ![]⟩ : Shape).numel) (p : SL.Idx → EReal) :
    (⟨1, ![1]⟩ : Shape).Idx → EReal :=
  broadcastInDim ⟨1, ![1]⟩ ![] hb
    (Host.divf (F := Ideal) (φ := .f32)
      (Host.reduceAdd (F := Ideal) (φ := .f32) p (constant (F := Ideal) ⟨0, ![]⟩ .f32 0x00000000#32) hr h0)
      (constant (F := Ideal) ⟨0, ![]⟩ .f32 0x41800000#32))

theorem toInt_4096 : (4096#32 : BitVec 32).toInt = 4096 := by decide

/-- For a count of at most `N = 4096`, the clamped form at the clamped count is the plain form at the count. -/
theorem perSeqClamped_clamp (x y : SX.Idx → EReal) (L : BitVec 32) (hL : L.toInt ≤ 4096) (b : Fin 16) :
    perSeqClamped x y (clamp 4096#32 L) b = perSeq x y L b := by
  have hN : (0 : ℤ) ≤ (4096#32 : BitVec 32).toInt := by rw [toInt_4096]; omega
  have hL' : L.toInt ≤ (4096#32 : BitVec 32).toInt := by rw [toInt_4096]; exact hL
  unfold perSeqClamped perSeq
  rw [cmpi_sgt_clamp 4096#32 L hN hL']
  by_cases hpos : IntOp.cmpi .sgt L 0#32 = 1#1
  · have h0 : 0 < L.toInt := (cmpi_sgt_zero_eq_one_iff L).mp hpos
    rw [clamp_of_pos 4096#32 L h0 hL', maxsi_one_toInt_of_pos L h0]
    have hmax : max ((L.toInt : ℝ) : EReal) one = ((L.toInt : ℝ) : EReal) := by
      rw [one_eq]
      apply max_eq_left
      have : (1 : ℝ) ≤ (L.toInt : ℝ) := by exact_mod_cast h0
      exact_mod_cast this
    rw [hmax]
  · have hz : IntOp.cmpi .sgt L 0#32 = 0#1 := by
      rcases BitVec.eq_zero_or_eq_one (IntOp.cmpi .sgt L 0#32) with h | h
      · exact h
      · exact absurd h hpos
    rw [hz]
    rfl

/-- For a count of at most `N`, a row's test against the clamped count is its test against the count. -/
theorem below_clamp (L : BitVec 32) (hL : L.toInt ≤ 4096) (n : Fin 4096) :
    below (BitVec.ofNat 32 n.val) (clamp 4096#32 L) = below (BitVec.ofNat 32 n.val) L := by
  unfold below
  rw [cmpi_slt_clamp 4096#32 L _ (by rw [toInt_4096]; omega) (by rw [toInt_4096]; exact hL)
    (by rw [toInt_ofNat_small _ (by have := n.isLt; omega)]; omega)]

end MeanCos

end
-- ==== Proof.LibTileSums.lean ====
/-
  Two rearrangements of a finite sum in any commutative additive monoid (so also over the extended reals, where
  no finiteness is needed for them):

  * a sum over `2n` terms folded in halves: adding term `k` to term `n + k` first and summing the `n` pairs
    gives the whole sum;
  * a sum over `T * n` terms taken tile by tile: summing each run of `n` consecutive terms and then the `T` runs
    gives the whole sum.
-/
import Mathlib.Algebra.BigOperators.Fin
import Mathlib.Data.Fintype.BigOperators
import Mathlib.Logic.Equiv.Fin.Basic

namespace TileSums

open Finset

variable {M : Type*} [AddCommMonoid M]

/-- Folding the two halves of a sum of `n + n` terms pairwise: `∑ₖ (f k + f (n + k)) = ∑ f`. -/
theorem sum_fold_halves (n : ℕ) (f : Fin (n + n) → M) :
    ∑ k : Fin n, (f (Fin.castAdd n k) + f (Fin.natAdd n k)) = ∑ d : Fin (n + n), f d := by
  rw [Finset.sum_add_distrib, Fin.sum_univ_add]

/-- The same with the two terms named by their positions `k` and `n + k`. -/
theorem sum_fold_halves_val (n : ℕ) (f : Fin (n + n) → M) :
    ∑ k : Fin n, (f ⟨k.val, by omega⟩ + f ⟨n + k.val, by omega⟩) = ∑ d : Fin (n + n), f d :=
  sum_fold_halves n f

/-- A sum of `T * n` terms taken in `T` consecutive tiles of `n`: `∑ⱼ ∑ᵢ f (n j + i) = ∑ f`. -/
theorem sum_tiles (T n : ℕ) (f : Fin (T * n) → M) :
    ∑ j : Fin T, ∑ i : Fin n, f (finProdFinEquiv (j, i)) = ∑ x : Fin (T * n), f x := by
  rw [← Fintype.sum_prod_type (f := fun p : Fin T × Fin n => f (finProdFinEquiv p))]
  exact Equiv.sum_comp finProdFinEquiv f

/-- Tile `j`'s term `i` is term `n j + i` of the whole. -/
theorem tile_val (T n : ℕ) (j : Fin T) (i : Fin n) :
    ((finProdFinEquiv (j, i) : Fin (T * n)) : ℕ) = n * j.val + i.val := by
  simp only [finProdFinEquiv_apply_val]; omega

/-- Summing over `range (k + 1)` of a function of naturals, as a sum over `Fin (k + 1)`. -/
theorem sum_range_eq_sum_fin (k : ℕ) (g : ℕ → M) : ∑ j ∈ Finset.range k, g j = ∑ j : Fin k, g j.val :=
  (Fin.sum_univ_eq_sum_range g k).symm

end TileSums
-- ==== Proof.BodyValues.lean ====
/-
  The kernel body's arithmetic read at one index, over the extended reals.

  * a row's folded dot product — the two 128-lane halves multiplied and added lane by lane, then summed over the
    128 lanes — is the plain dot product over all 256 lanes (`halfDot_apply`: sums commute and associate in any
    commutative monoid, the infinities included);
  * so the tile's cosine at row `r` of the block, position `n` of the tile, is `MeanCos.cosRow` of the two rows
    (`pay5_apply`);
  * a row's position in its sequence is `512 · tile + n` (`pay6_apply`);
  * the running sum after the tile is the old one plus the sum over the tile's 512 positions of cosine times the
    0/1 test "position below the count" (`pay2_apply`);
  * the block's loss is `1 - sum / max count 1` where the count is positive, `0` elsewhere (`pay3_apply`); the
    reset value is zero (`pay4_apply`).
-/
import proofs.«149728_j35150012350738_2_alg».proof.Proof.Gen.KernelIdeal.Skeleton
import proofs.«149728_j35150012350738_2_alg».proof.Proof.Spec
import proofs.«149728_j35150012350738_2_alg».proof.Proof.LibTileSums
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.BodyValues

open Cert.KernelIdeal Cert.KernelIdeal.Gen

/-- A sum over the 128 lanes of a [8, 512, 128] vector, at row `r`, position `n`. -/
theorem laneSum_apply (src : FVec Ideal S8x512x128 .f32) (h : S8x512x128.Reduces [2] S8x512) (hφ : FKind.Formats .f32)
    (hacc : (0x00000000#32 : BitVec 32) = FKind.add.neutral .f32 hφ) (r : Fin 8) (n : Fin 512) :
    multiReduction .add [2] S8x512 src 0x00000000#32 h hφ hacc (ix2 r n) = ∑ k : Fin 128, src (ix3 r n k) := by
  refine (Ideal.multiReduction_add_single src _ h hφ hacc (ix2 r n)).trans ?_
  show ∑ k : Fin 128, src (h.lift (ix2 r n) k) = _
  refine Finset.sum_congr rfl fun k _ => congrArg src ?_
  funext a
  apply Fin.ext
  match a with
  | ⟨0, _⟩ => rfl
  | ⟨1, _⟩ => rfl
  | ⟨2, _⟩ => rfl

/-- A sum over the 512 positions of a [8, 512] vector, at row `r`. -/
theorem rowSum_apply (src : FVec Ideal S8x512 .f32) (h : S8x512.Reduces [1] S8) (hφ : FKind.Formats .f32)
    (hacc : (0x00000000#32 : BitVec 32) = FKind.add.neutral .f32 hφ) (r : Fin 8) :
    multiReduction .add [1] S8 src 0x00000000#32 h hφ hacc (ix1 r) = ∑ n : Fin 512, src (ix2 r n) := by
  refine (Ideal.multiReduction_add_single src _ h hφ hacc (ix1 r)).trans ?_
  show ∑ n : Fin 512, src (h.lift (ix1 r) n) = _
  refine Finset.sum_congr rfl fun n _ => congrArg src ?_
  funext a
  apply Fin.ext
  match a with
  | ⟨0, _⟩ => rfl
  | ⟨1, _⟩ => rfl

/-- The low half of the lanes of a row: lane `k`. -/
theorem lo_apply (a : FVec Ideal S8x512x256 .f32) (h : S8x512x256.Slices ![0, 0, 0] S8x512x128) (r : Fin 8) (n : Fin 512)
    (k : Fin 128) : extractStridedSlice S8x512x128 ![0, 0, 0] a h (ix3 r n k) = a (ix3 r n ⟨k.val, by omega⟩) :=
  extractStridedSlice_apply _ a h (ix3 r n k) (ix3 r n ⟨k.val, by omega⟩) (fun d => match d with
    | ⟨0, _⟩ => (Nat.zero_add _).symm
    | ⟨1, _⟩ => (Nat.zero_add _).symm
    | ⟨2, _⟩ => (Nat.zero_add _).symm)

/-- The high half: lane `128 + k`. -/
theorem hi_apply (a : FVec Ideal S8x512x256 .f32) (h : S8x512x256.Slices ![0, 0, 128] S8x512x128) (r : Fin 8) (n : Fin 512)
    (k : Fin 128) : extractStridedSlice S8x512x128 ![0, 0, 128] a h (ix3 r n k) = a (ix3 r n ⟨128 + k.val, by omega⟩) :=
  extractStridedSlice_apply _ a h (ix3 r n k) (ix3 r n ⟨128 + k.val, by omega⟩) (fun d => match d with
    | ⟨0, _⟩ => (Nat.zero_add _).symm
    | ⟨1, _⟩ => (Nat.zero_add _).symm
    | ⟨2, _⟩ => rfl)

/-- The folded dot product of two blocks of rows: halves multiplied lane by lane, added, summed over 128 lanes. -/
def halfDot (a b : FVec Ideal S8x512x256 .f32) : FVec Ideal S8x512 .f32 :=
  multiReduction .add [2] S8x512
    (addf (mulf (extractStridedSlice S8x512x128 ![0, 0, 0] a slices_S8x512x256_o0_0_0_S8x512x128)
                (extractStridedSlice S8x512x128 ![0, 0, 0] b slices_S8x512x256_o0_0_0_S8x512x128))
          (mulf (extractStridedSlice S8x512x128 ![0, 0, 128] a slices_S8x512x256_o0_0_128_S8x512x128)
                (extractStridedSlice S8x512x128 ![0, 0, 128] b slices_S8x512x256_o0_0_128_S8x512x128)))
    0x00000000#32 reduces_S8x512x128_S8x512 (.inl rfl) rfl

/-- It is the plain dot product over all 256 lanes. -/
theorem halfDot_apply (a b : FVec Ideal S8x512x256 .f32) (r : Fin 8) (n : Fin 512) :
    halfDot a b (ix2 r n) = ∑ d : Fin 256, a (ix3 r n d) * b (ix3 r n d) := by
  unfold halfDot
  refine (laneSum_apply _ _ _ _ r n).trans ?_
  refine Eq.trans (Finset.sum_congr rfl fun k _ => ?_)
    (TileSums.sum_fold_halves_val 128 (fun d : Fin (128 + 128) => a (ix3 r n d) * b (ix3 r n d)))
  show extractStridedSlice S8x512x128 ![0, 0, 0] a _ (ix3 r n k) * extractStridedSlice S8x512x128 ![0, 0, 0] b _ (ix3 r n k)
      + extractStridedSlice S8x512x128 ![0, 0, 128] a _ (ix3 r n k) * extractStridedSlice S8x512x128 ![0, 0, 128] b _ (ix3 r n k) = _
  rw [lo_apply a _ r n k, lo_apply b _ r n k, hi_apply a _ r n k, hi_apply b _ r n k]

/-- The tile's cosines are the quotient of the folded dot product by the product of the raised norms. -/
theorem pay5_eq (v3 v4 : FVec Ideal S8x512x256 .f32) :
    k0_pay5 (F := Ideal) v3 v4
      = divf (halfDot v3 v4) (mulf (maximumf (sqrt (halfDot v3 v3)) (broadcast S8x512 (Scalar.ofBits .f32 0x322BCC77#32)))
          (maximumf (sqrt (halfDot v4 v4)) (broadcast S8x512 (Scalar.ofBits .f32 0x322BCC77#32)))) := rfl

/-- The tile's cosine at row `r`, position `n`: the cosine of the two rows. -/
theorem pay5_apply (v3 v4 : FVec Ideal S8x512x256 .f32) (r : Fin 8) (n : Fin 512) :
    k0_pay5 (F := Ideal) v3 v4 (ix2 r n) = MeanCos.cosRow (fun d => v3 (ix3 r n d)) (fun d => v4 (ix3 r n d)) := by
  rw [pay5_eq]
  show Ideal.div (halfDot v3 v4 (ix2 r n)) (max (Ideal.sqrt (halfDot v3 v3 (ix2 r n))) MeanCos.eps
      * max (Ideal.sqrt (halfDot v4 v4 (ix2 r n))) MeanCos.eps) = _
  rw [halfDot_apply, halfDot_apply, halfDot_apply]
  rfl

/-- A row's position in its sequence: `512 · tile + n`. -/
theorem pay6_apply (i : grid0.Coords) (r : Fin 8) (n : Fin 512) :
    k0_pay6 i (ix2 r n) = BitVec.ofNat 32 (512 * (i 1).val + n.val) := by
  unfold k0_pay6
  show IntOp.addi (IntOp.muli (BitVec.ofNat 32 (i 1).val) (BitVec.ofNat 32 512)) (iota .tc S8x512 32 [1] iota_S8x512_d1_w32 (ix2 r n)) = _
  rw [iota_single_apply]
  exact ClampWords.pos_word (i 1).val n.val 512

/-- A comparison bit widened to 32 bits and read as a signed number is the bit read as a natural number. -/
theorem bit_toInt (b : BitVec 1) : (((b.setWidth 32).toInt : ℝ) : EReal) = ((b.toNat : ℝ) : EReal) := by
  rcases BitVec.eq_zero_or_eq_one b with h | h <;> subst h <;> simp

/-- The running sum after a tile: the old one plus the tile's sum of cosine times the 0/1 row test. -/
theorem pay2_apply (v36 : FVec Ideal S8x512 .f32) (v40 : IVec S8x512 32) (v41 : Vec Ideal S8x1 .i32) (v50 : Vec Ideal S8x1 .f32)
    (r : Fin 8) :
    k0_pay2 (F := Ideal) v36 v40 v41 v50 (ix2 r (0 : Fin 1))
      = v50 (ix2 r 0) + ∑ n : Fin 512, v36 (ix2 r n) * MeanCos.below (v40 (ix2 r n)) (v41 (ix2 r 0)) := by
  unfold k0_pay2 k0_pay1
  simp only [shapeCast_self]
  show v50 (ix2 r 0) + shapeCast S8x1 (multiReduction (F := Ideal) (φ := .f32) .add [1] S8 _ 0x00000000#32 reduces_S8x512_S8 (.inl rfl) rfl) shapeCasts_S8_S8x1 (ix2 r 0) = _
  refine congrArg (v50 (ix2 r 0) + ·) ?_
  refine (shapeCast_apply _ shapeCasts_S8_S8x1 (ix2 r (0 : Fin 1)) (ix1 r) ?_).trans ?_
  · rw [Shape.rowMajor_val_one, Shape.rowMajor_val_two]; show r.val = r.val * 1 + 0; omega
  refine (rowSum_apply _ _ _ _ r).trans ?_
  refine Finset.sum_congr rfl fun n _ => ?_
  show v36 (ix2 r n) * FloatOps.sitofp .f32 ((IntOp.cmpi .slt (v40 (ix2 r n)) (broadcastTo S8x512 v41 broadcasts_S8x1_S8x512 (ix2 r n))).setWidth 32) = _
  rw [broadcastTo_apply v41 broadcasts_S8x1_S8x512 (ix2 r n) (ix2 r 0) (fun d => match d with
    | ⟨0, _⟩ => by show r.val = if (8 : Nat) = 1 then 0 else r.val; rw [if_neg (by decide)]
    | ⟨1, _⟩ => by show (0 : Nat) = if (1 : Nat) = 1 then 0 else n.val; rw [if_pos rfl])]
  exact congrArg (v36 (ix2 r n) * ·) (bit_toInt _)

/-- The block's loss at row `r`: `1 - sum / max count 1` where the count is positive, `0` elsewhere. -/
theorem pay3_apply (v41 : Vec Ideal S8x1 .i32) (v61 : Vec Ideal S8x1 .f32) (r : Fin 8) :
    k0_pay3 (F := Ideal) v41 v61 (ix2 r (0 : Fin 1))
      = Scalar.select (IntOp.cmpi .sgt (v41 (ix2 r 0)) 0#32)
          (MeanCos.one - Ideal.div (v61 (ix2 r 0)) (max ((((v41 (ix2 r 0)).toInt : ℝ)) : EReal) MeanCos.one)) MeanCos.zero := by
  unfold k0_pay3 k0_pay1
  simp only [shapeCast_self]
  rfl

/-- The reset value is zero. -/
theorem pay4_apply (r : Fin 8) : k0_pay4 (F := Ideal) (ix2 r (0 : Fin 1)) = 0 := by
  unfold k0_pay4
  simp only [shapeCast_self]
  exact Ideal.ofBits_zero_f32

end Cert.KernelIdeal.BodyValues

end
-- ==== Proof.Accumulate.lean ====
/-
  The running sum across the grid, and what the output array ends holding.

  The grid has 16 points `t = 8 · (block of sequences) + (row tile)`. At point `t` the body sees rows
  `512 · (t mod 8) … 512 · (t mod 8) + 511` of sequences `8 · (t / 8) … 8 · (t / 8) + 7` (the blocks read through the
  windows: `iblk0_apply`, `iblk1_apply`, `iblk2_apply`). By induction on the point, after point `t` the running sum
  of sequence `8 · (t / 8) + r` is the sum, over the tiles `j ≤ t mod 8` and the 512 positions of each, of the row's cosine
  times its 0/1 test against the sequence's count (`acc_eq`): the first tile of a block starts from zero, every later
  one adds to what the tile before left. At the last tile that is the sum over all 4096 rows (tiles laid end to end:
  `TileSums.sum_tiles`), and the loss written there is `MeanCos.perSeqClamped` of the count as the region finds it
  (`out_eq`). Each block of eight losses is written back once, the two blocks tile the [16, 1] array, so the array ends
  holding that function of the sequence index (`final_out`).
-/
import proofs.«149728_j35150012350738_2_alg».proof.Proof.Gen.KernelIdeal.Frame
import proofs.«149728_j35150012350738_2_alg».proof.Proof.Pieces
import proofs.«149728_j35150012350738_2_alg».proof.Proof.BodyValues
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ)

/-- Where each window's block sits at point `t`, and the point's row tile: decided over the 16 points. -/
theorem idx_facts : ∀ t : Fin cfg0.N,
    win0_0.index t (0 : Fin 2) = t.val / 8 ∧ win0_0.index t (1 : Fin 2) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 2) = t.val / 8 ∧ win0_3.index t (1 : Fin 2) = 0
    ∧ (grid0.coords t 1).val = t.val % 8 :=
  (by decide +kernel : ∀ t : Fin grid0.N, _)

theorem N16 : cfg0.N = 16 := N_0

/-- The sequence that row `r` of point `t`'s block belongs to. -/
def rowOf (t : Fin cfg0.N) (r : Fin 8) : Fin 16 :=
  ⟨8 * (t.val / 8) + r.val, by have h : t.val < 16 := lt_of_lt_of_eq t.isLt N16; omega⟩

/-- The row number of position `n` of point `t`'s tile. -/
def posOf (t : Fin cfg0.N) (n : Fin 512) : Fin 4096 := ⟨512 * (t.val % 8) + n.val, by omega⟩

/-- The counts as the region finds them (the clamped counts, one per sequence). -/
abbrev cnt (c : Dev nD) (b : Fin 16) : BitVec 32 := V m c main_v1 (ix2 b (0 : Fin 1))

/-- The counts' block at point `t`. -/
theorem iblk0_apply (c : Dev nD) (t : Fin cfg0.N) (r : Fin 8) :
    iblk m c 0 t (ix2 r (0 : Fin 1)) = cnt m c (rowOf t r) := by
  obtain ⟨e0, e1, -⟩ := idx_facts t
  show V m c main_v1 (((cfg0.win 0).blk t).view.emb (ix2 r (0 : Fin 1))) = V m c main_v1 (ix2 (rowOf t r) (0 : Fin 1))
  refine congrArg (V m c main_v1) ?_
  funext a; apply Fin.ext
  match a with
  | ⟨0, _⟩ => show win0_0.index t (0 : Fin 2) * 8 + 1 * r.val = 8 * (t.val / 8) + r.val; omega
  | ⟨1, _⟩ => show win0_0.index t (1 : Fin 2) * 1 + 1 * 0 = 0; omega

/-- The first array's block of rows at point `t`. -/
theorem iblk1_apply (c : Dev nD) (t : Fin cfg0.N) (r : Fin 8) (n : Fin 512) (d : Fin 256) :
    iblk m c 1 t (ix3 r n d) = V m c main_arg0 (ix3 (rowOf t r) (posOf t n) d) := by
  obtain ⟨-, -, e2, e3, e4, -⟩ := idx_facts t
  show V m c main_arg0 (((cfg0.win 1).blk t).view.emb (ix3 r n d)) = V m c main_arg0 (ix3 (rowOf t r) (posOf t n) d)
  refine congrArg (V m c main_arg0) ?_
  funext a; apply Fin.ext
  match a with
  | ⟨0, _⟩ => show win0_1.index t (0 : Fin 3) * 8 + 1 * r.val = 8 * (t.val / 8) + r.val; omega
  | ⟨1, _⟩ => show win0_1.index t (1 : Fin 3) * 512 + 1 * n.val = 512 * (t.val % 8) + n.val; omega
  | ⟨2, _⟩ => show win0_1.index t (2 : Fin 3) * 256 + 1 * d.val = d.val; omega

/-- The second array's block of rows at point `t`. -/
theorem iblk2_apply (c : Dev nD) (t : Fin cfg0.N) (r : Fin 8) (n : Fin 512) (d : Fin 256) :
    iblk m c 2 t (ix3 r n d) = V m c main_arg1 (ix3 (rowOf t r) (posOf t n) d) := by
  obtain ⟨-, -, -, -, -, e5, e6, e7, -⟩ := idx_facts t
  show V m c main_arg1 (((cfg0.win 2).blk t).view.emb (ix3 r n d)) = V m c main_arg1 (ix3 (rowOf t r) (posOf t n) d)
  refine congrArg (V m c main_arg1) ?_
  funext a; apply Fin.ext
  match a with
  | ⟨0, _⟩ => show win0_2.index t (0 : Fin 3) * 8 + 1 * r.val = 8 * (t.val / 8) + r.val; omega
  | ⟨1, _⟩ => show win0_2.index t (1 : Fin 3) * 512 + 1 * n.val = 512 * (t.val % 8) + n.val; omega
  | ⟨2, _⟩ => show win0_2.index t (2 : Fin 3) * 256 + 1 * d.val = d.val; omega

/-- Row `p` of sequence `b`: its cosine times its 0/1 test against the sequence's count (zero past the last row). -/
def term (c : Dev nD) (b : Fin 16) (p : ℕ) : EReal :=
  if h : p < 4096 then
    MeanCos.cosAt (V m c main_arg0) (V m c main_arg1) b ⟨p, h⟩ * MeanCos.below (BitVec.ofNat 32 p) (cnt m c b)
  else 0

/-- One tile's step: the old sum plus the tile's 512 terms. -/
theorem tile_apply (c : Dev nD) (t : Fin cfg0.N) (acc : Vec Ideal S8x1 .f32) (r : Fin 8) :
    k0_pay2 (F := Ideal) (k0_pay5 (iblk m c 1 t) (iblk m c 2 t)) (k0_pay6 (grid0.coords t)) (iblk m c 0 t) acc (ix2 r (0 : Fin 1))
      = acc (ix2 r 0) + ∑ n : Fin 512, term m c (rowOf t r) (512 * (t.val % 8) + n.val) := by
  obtain ⟨-, -, -, -, -, -, -, -, -, -, e10⟩ := idx_facts t
  refine (BodyValues.pay2_apply (k0_pay5 (iblk m c 1 t) (iblk m c 2 t)) (k0_pay6 (grid0.coords t)) (iblk m c 0 t) acc r).trans ?_
  refine congrArg (acc (ix2 r 0) + ·) (Finset.sum_congr rfl fun n _ => ?_)
  rw [BodyValues.pay5_apply (iblk m c 1 t) (iblk m c 2 t) r n, BodyValues.pay6_apply (grid0.coords t) r n, iblk0_apply m c t r, e10]
  have hp : 512 * (t.val % 8) + n.val < 4096 := by omega
  unfold term
  rw [dif_pos hp]
  refine congrArg (· * _) ?_
  unfold MeanCos.cosAt
  refine congr (congrArg MeanCos.cosRow (funext fun d => ?_)) (funext fun d => ?_)
  · exact iblk1_apply m c t r n d
  · exact iblk2_apply m c t r n d

/-- THE RUNNING SUM after point `n`: the tiles up to this one of the point's block of sequences. -/
theorem acc_eq (c : Dev nD) : ∀ (n : ℕ) (h : n < cfg0.N) (r : Fin 8),
    (outsAt0 m c n h).2 (ix2 r (0 : Fin 1))
      = ∑ j ∈ Finset.range (n % 8 + 1), ∑ i : Fin 512, term m c (rowOf ⟨n, h⟩ r) (512 * j + i.val) := by
  intro n
  induction n using Nat.strong_induction_on with
  | _ n ih =>
    intro h r
    have hN : n < 16 := by have := h; rw [N16] at this; exact this
    by_cases h0 : n % 8 = 0
    · have h1 : ¬ n % 8 = 7 := by omega
      show (outsAt0 m c (⟨n, h⟩ : Fin cfg0.N).val (⟨n, h⟩ : Fin cfg0.N).isLt).2 (ix2 r (0 : Fin 1)) = _
      rw [outsAt0_A m c ⟨n, h⟩ h0 h1]
      dsimp only
      rw [Pieces.sout_A, tile_apply m c ⟨n, h⟩ _ r, BodyValues.pay4_apply r, zero_add, h0, Finset.sum_range_one]
    · have hpos : 0 < n := by omega
      have ihn := ih (n - 1) (by omega) (by rw [N16]; omega) r
      have hrow : rowOf ⟨n - 1, by rw [N16]; omega⟩ r = rowOf ⟨n, h⟩ r := by
        apply Fin.ext; show 8 * ((n - 1) / 8) + r.val = 8 * (n / 8) + r.val; omega
      have hcnt : (n - 1) % 8 + 1 = n % 8 := by omega
      rw [hrow, hcnt] at ihn
      show (outsAt0 m c (⟨n, h⟩ : Fin cfg0.N).val (⟨n, h⟩ : Fin cfg0.N).isLt).2 (ix2 r (0 : Fin 1)) = _
      by_cases h1 : n % 8 = 7
      · rw [outsAt0_C m c ⟨n, h⟩ h0 h1]
        dsimp only
        rw [Pieces.sout_C, tile_apply m c ⟨n, h⟩ _ r, Finset.sum_range_succ]
        exact congrArg (· + _) ihn
      · rw [outsAt0_B m c ⟨n, h⟩ h0 h1]
        dsimp only
        rw [Pieces.sout_B, tile_apply m c ⟨n, h⟩ _ r, Finset.sum_range_succ]
        exact congrArg (· + _) ihn

/-- All eight tiles of a sequence laid end to end are its 4096 rows. -/
theorem all_tiles (c : Dev nD) (b : Fin 16) :
    ∑ j ∈ Finset.range 8, ∑ i : Fin 512, term m c b (512 * j + i.val)
      = MeanCos.maskedSum (V m c main_arg0) (V m c main_arg1) (cnt m c b) b := by
  rw [TileSums.sum_range_eq_sum_fin 8 (fun j => ∑ i : Fin 512, term m c b (512 * j + i.val))]
  have e : ∀ (j : Fin 8) (i : Fin 512), term m c b (512 * j.val + i.val)
      = (fun x : Fin (8 * 512) => term m c b x.val) (finProdFinEquiv (j, i)) := fun j i => by
    show _ = term m c b ((finProdFinEquiv (j, i) : Fin (8 * 512)) : ℕ)
    rw [TileSums.tile_val]
  simp only [e]
  rw [TileSums.sum_tiles 8 512 (fun x : Fin (8 * 512) => term m c b x.val)]
  unfold MeanCos.maskedSum
  refine Finset.sum_congr rfl fun x _ => ?_
  unfold term
  rw [dif_pos x.isLt]

/-- THE LOSSES the last tile of a block writes: the clamped-form loss of each of its eight sequences. -/
theorem out_eq (c : Dev nD) (t : Fin cfg0.N) (h7 : t.val % 8 = 7) (r : Fin 8) :
    (outsAt0 m c t.val t.isLt).1 (ix2 r (0 : Fin 1))
      = MeanCos.perSeqClamped (V m c main_arg0) (V m c main_arg1) (cnt m c (rowOf t r)) (rowOf t r) := by
  have h0 : ¬ t.val % 8 = 0 := by omega
  have hacc := acc_eq m c t.val t.isLt r
  rw [outsAt0_C m c t h0 h7] at hacc ⊢
  dsimp only at hacc ⊢
  rw [Pieces.sout_C] at hacc
  rw [Pieces.out_C, BodyValues.pay3_apply, hacc, iblk0_apply m c t r, h7]
  unfold MeanCos.perSeqClamped
  rw [show (⟨t.val, t.isLt⟩ : Fin cfg0.N) = t from rfl, all_tiles m c (rowOf t r)]

/-- What the output array ends holding: sequence `b`'s clamped-form loss at `(b, 0)`. -/
def outArr (c : Dev nD) : S16x1.Idx → EReal :=
  fun i => MeanCos.perSeqClamped (V m c main_arg0) (V m c main_arg1) (cnt m c (i 0)) (i 0)

/-- The block of losses point `t` leaves, as a function of the row of the block. -/
theorem out_block (c : Dev nD) (t : Fin cfg0.N) (h7 : t.val % 8 = 7) :
    (outsAt0 m c t.val t.isLt).1 = fun y : S8x1.Idx => outArr m c (ix2 (rowOf t (y 0)) (0 : Fin 1)) := by
  funext y
  obtain ⟨r, z, rfl⟩ : ∃ (r : Fin 8) (z : Fin 1), y = ix2 r z := ⟨y 0, y 1, eq_ix2 y⟩
  obtain rfl : z = 0 := Subsingleton.elim _ _
  exact out_eq m c t h7 r

/-- What point `t` writes back, when it writes back, is its block of `outArr`. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  obtain ⟨-, -, -, -, -, -, -, -, e8, e9, -⟩ := idx_facts t
  show (cfg0.win 3).cut (grid0.coords t) ((dats m 0 c).after 3 t) = _
  rw [after0_3, out_block m c t h7]
  generalize outArr m c = G
  funext j
  show G (ix2 (rowOf t ((win0_3.xinj (grid0.coords t) j) 0)) (0 : Fin 1)) = G (((cfg0.win 3).blk t).view.emb j)
  refine congrArg G ?_
  funext a; apply Fin.ext
  match a with
  | ⟨0, _⟩ => show 8 * (t.val / 8) + (j 0).val = win0_3.index t (0 : Fin 2) * 8 + 1 * (j 0).val; omega
  | ⟨1, _⟩ => show 0 = win0_3.index t (1 : Fin 2) * 1 + 1 * (j 1).val; have hj : (j 1).val < 1 := (j 1).isLt; omega

/-- An index of the array is in point `t`'s block iff each coordinate is in the block's range on its axis. -/
theorem mem_blk (t : Fin cfg0.N) (i : S16x1.Idx) :
    i ∈ ((cfg0.win 3).blk t).view.set ↔ ∀ a : Fin 2, win0_3.index t a * S8x1.size a ≤ (i a).val ∧ (i a).val < win0_3.index t a * S8x1.size a + S8x1.size a := by
  show i ∈ ((View.whole main_v2).slice (win0_3.rect t)).set ↔ _
  rw [View.set_slice_whole, Rect.mem_set_unit]
  exact Iff.rfl

/-- THE OUTPUT ARRAY after the region: the two written-back blocks tile it. -/
theorem final_out (c : Dev nD) : (dats m 0 c).arrAt 3 cfg0.N = outArr m c :=
  (dats m 0 c).arrAt_eq_of_cover 3 (outArr m c) (flushed_eq m c) fun i => by
    have hi0 : (i 0).val < 16 := (i 0).isLt
    have hi1 : (i 1).val < 1 := (i 1).isLt
    let t : Fin cfg0.N := ⟨8 * ((i 0).val / 8) + 7, by rw [N16]; omega⟩
    have ht : t.val = 8 * ((i 0).val / 8) + 7 := rfl
    obtain ⟨-, -, -, -, -, -, -, -, e8, e9, -⟩ := idx_facts t
    refine ⟨t, (flush0_3 t).mpr (by rw [ht]; omega), ?_⟩
    rw [mem_blk]
    intro a
    match a with
    | ⟨0, _⟩ => show win0_3.index t (0 : Fin 2) * 8 ≤ (i 0).val ∧ (i 0).val < win0_3.index t (0 : Fin 2) * 8 + 8; rw [e8, ht]; omega
    | ⟨1, _⟩ => show win0_3.index t (1 : Fin 2) * 1 ≤ (i 1).val ∧ (i 1).val < win0_3.index t (1 : Fin 2) * 1 + 1; rw [e9]; omega

end Cert.KernelIdeal.Accum

end
-- ==== Proof.KernelValue.lean ====
/-
  The kernel program's result as a function of its arguments, at the extended reals.

  Before the region the host clamps the counts to `[0, 4096]` and lays them out as a [16, 1] column (`cnt_eq`);
  the two arrays of rows reach the region as given. After the region the host reads the [16, 1] column of losses as
  sixteen numbers, sums them and divides by sixteen (`tail_eq`). With the output array of the region (Accumulate) the
  program's one result is `MeanCos.finish` of the clamped-form losses of the clamped counts (`run`).
-/
import proofs.«149728_j35150012350738_2_alg».proof.Proof.Accumulate
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Idealize.ShloMosaic.StableHlo

variable (m : (ℓ : Loc nD τ sig) → Buf (Elt Ideal) ℓ) (ρ : Dev nD → PrngReg)

/-- The column of counts the region finds: the clip of the counts, reshaped [16] → [16, 1]. -/
theorem V_main_v1 (c : Dev nD) : (V m c main_v1 : S16x1.Idx → BitVec 32)
    = shapeCast S16x1 (minsi (broadcastInDim S16 ![] bcast_S_S16 (id (constantI S_ 32 4096#32)))
        (maxsi (broadcastInDim S16 ![] bcast_S_S16 (id (constantI S_ 32 0#32))) (m ((c : Thread nD τ).loc main_arg2)))) shapeCasts_S16_S16x1 := by
  dsimp only [V, V0]
  simp only [hostOps0, hostOps0_1, hostOps0_2, List.flatten_cons, List.flatten_nil, List.append_nil, List.cons_append,
    List.nil_append]
  after_results
  rfl

/-- Sequence `b`'s count as the region finds it is the clamp of the given one. -/
theorem cnt_eq (c : Dev nD) (b : Fin 16) :
    Accum.cnt m c b = ClampWords.clamp 4096#32 (m ((c : Thread nD τ).loc main_arg2) (ix1 b)) := by
  show (V m c main_v1 : S16x1.Idx → BitVec 32) (ix2 b (0 : Fin 1)) = _
  rw [V_main_v1]
  rw [shapeCast_apply _ shapeCasts_S16_S16x1 (ix2 b (0 : Fin 1)) (ix1 b)
    (by rw [Shape.rowMajor_val_one, Shape.rowMajor_val_two]; show b.val = b.val * 1 + 0; omega)]
  rfl

/-- The host lines after the region, over whatever the region's output array holds. -/
theorem tail_of (c : Dev nD) (A : S16x1.Idx → EReal)
    (hA : Pipeline.withArrays (cfgs 0).spec c (V0 m c) (fun w => (dats m 0 c).arrAt w (cfgs 0).N) (Proc.devRef .tc main_v2) = A) :
    (Pipeline.afterTail₀ cfgs (dats m) 0 (V0 m) [hostOps1] c main_v6 : S1.Idx → EReal)
      = MeanCos.finish bcast_S_S1 reducesTo_S16_S_d0 h_S_ (shapeCast S16 A shapeCasts_S16x1_S16) := by
  subst hA
  unfold Pipeline.afterTail₀
  show StableHlo.after hostOps1 _ (Proc.devRef .tc main_v6) = _
  after_results
  rfl

/-- With the region's output array: the result is the finish of the column of losses read as sixteen numbers. -/
theorem tail_eq (c : Dev nD) :
    (Pipeline.afterTail₀ cfgs (dats m) 0 (V0 m) [hostOps1] c main_v6 : S1.Idx → EReal)
      = MeanCos.finish bcast_S_S1 reducesTo_S16_S_d0 h_S_ (shapeCast S16 (Accum.outArr m c) shapeCasts_S16x1_S16) :=
  tail_of m c (Accum.outArr m c)
    ((Pipeline.withArrays_arr spec0 launch0.win.arr_inj c _ _ 3).trans (Accum.final_out m c))

/-- The column read as sixteen numbers, in terms of the arguments: the clamped-form loss at the clamped count. -/
theorem losses_eq (c : Dev nD) :
    shapeCast S16 (Accum.outArr m c) shapeCasts_S16x1_S16
      = fun j : S16.Idx => MeanCos.perSeqClamped (m ((c : Thread nD τ).loc main_arg0)) (m ((c : Thread nD τ).loc main_arg1))
          (ClampWords.clamp 4096#32 (m ((c : Thread nD τ).loc main_arg2) (ix1 (j 0)))) (j 0) := by
  funext j
  obtain ⟨b, rfl⟩ : ∃ b : Fin 16, j = ix1 b := ⟨j 0, eq_ix1 j⟩
  rw [shapeCast_apply _ shapeCasts_S16x1_S16 (ix1 b) (ix2 b (0 : Fin 1))
    (by rw [Shape.rowMajor_val_one, Shape.rowMajor_val_two]; show b.val * 1 + 0 = b.val; omega)]
  show MeanCos.perSeqClamped (V m c main_arg0) (V m c main_arg1) (Accum.cnt m c b) b = _
  rw [V_main_arg0 m c, V_main_arg1 m c, cnt_eq m c b]

/-- THE RUN, READ: every execution ends with the result at the finish of those losses, the arguments unchanged. -/
theorem run : θ_run defs (onTc (τ := τ) (main (F := Ideal))) ⟨m, fun _ => 0, ρ⟩ fun r => ∀ c : Dev nD,
      r.2.mem ((c : Thread nD τ).loc main_v6)
        = MeanCos.finish bcast_S_S1 reducesTo_S16_S_d0 h_S_
            (fun j : S16.Idx => MeanCos.perSeqClamped (m ((c : Thread nD τ).loc main_arg0)) (m ((c : Thread nD τ).loc main_arg1))
              (ClampWords.clamp 4096#32 (m ((c : Thread nD τ).loc main_arg2) (ix1 (j 0)))) (j 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans
        ((tail_eq m c).trans (congrArg (MeanCos.finish bcast_S_S1 reducesTo_S16_S_d0 h_S_) (losses_eq m c))),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c))⟩)
    (run_main m ρ)

end Cert.KernelIdeal.KernelValue

end
-- ==== Proof.RefValue.lean ====
/-
  The reference program's sixteen per-sequence losses are `MeanCos.perSeq`.

  Its stages read one operation at a time: the row products summed over the 256 lanes are the three dot products
  (the initial zero added in front disappears), their quotient by the raised norms is the cosine of the two rows, the
  comparison of the row number with the broadcast count is the 0/1 row test, the sum over the 4096 rows the masked
  sum, and the last stages divide by `max count 1`, subtract from one and select on `count > 0`.
-/
import proofs.«149728_j35150012350738_2_alg».proof.Proof.Gen.ReferenceIdeal.Read
import proofs.«149728_j35150012350738_2_alg».proof.Proof.Spec
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read

theorem idx8 (b : Fin 16) (n : Fin 4096) (k : Fin 256) : idx_main_v8 (ix2 b n) k = ix3 b n k :=
  funext fun a => Fin.ext (by match a with | ⟨0, _⟩ => rfl | ⟨1, _⟩ => rfl | ⟨2, _⟩ => rfl)
theorem idx10 (b : Fin 16) (n : Fin 4096) (k : Fin 256) : idx_main_v10 (ix2 b n) k = ix3 b n k :=
  funext fun a => Fin.ext (by match a with | ⟨0, _⟩ => rfl | ⟨1, _⟩ => rfl | ⟨2, _⟩ => rfl)
theorem idx15 (b : Fin 16) (n : Fin 4096) (k : Fin 256) : idx_main_v15 (ix2 b n) k = ix3 b n k :=
  funext fun a => Fin.ext (by match a with | ⟨0, _⟩ => rfl | ⟨1, _⟩ => rfl | ⟨2, _⟩ => rfl)
theorem idx25 (b : Fin 16) (n : Fin 4096) : idx_main_v25 (ix1 b) n = ix2 b n :=
  funext fun a => Fin.ext (by match a with | ⟨0, _⟩ => rfl | ⟨1, _⟩ => rfl)
theorem idx24 (b : Fin 16) (n : Fin 4096) : idx_main_v2 (idx_main_v4 (ix2 b n)) = ix1 b :=
  funext fun a => Fin.ext (by match a with | ⟨0, _⟩ => rfl)

/-- The reference's cosine at sequence `b`, row `n`. -/
theorem cos_apply (x0 x1 : (⟨S16x4096x256, .f32⟩ : BufTy).Contents (Elt Ideal)) (b : Fin 16) (n : Fin 4096) :
    val_main_v20 (F := Ideal) x0 x1 (ix2 b n) = MeanCos.cosAt x0 x1 b n := by
  simp only [val_main_v20_apply, val_main_v19_apply, val_main_v13_apply, val_main_v18_apply, val_main_v11_apply,
    val_main_v16_apply, val_main_v12_apply, val_main_v17_apply, val_main_v8_apply, val_main_v10_apply, val_main_v15_apply,
    val_main_v7_apply, val_main_v9_apply, val_main_v14_apply, val_main_cst_apply, val_main_cst_0_apply,
    val_main_cst_1_apply, val_main_cst_2_apply, val_main_cst_3_apply, idx8, idx10, idx15,
    Ideal.hostDivf_def, Ideal.mulf_def, Ideal.maximumf_def, Ideal.hostUnary_sqrt_def, Ideal.ofBits_def,
    Ideal.ofBits_zero_f32, zero_add]
  rfl

/-- The reference's 0/1 row test at sequence `b`, row `n`. -/
theorem mask_apply (x2 : (⟨S16, .i32⟩ : BufTy).Contents (Elt Ideal)) (b : Fin 16) (n : Fin 4096) :
    val_main_v6 (F := Ideal) x2 (ix2 b n) = MeanCos.below (BitVec.ofNat 32 n.val) (x2 (ix1 b)) := by
  simp only [val_main_v6_apply, val_main_v5_apply, val_main_v3_apply, val_main_v1_apply, val_main_v0_apply,
    val_main_v4_apply, val_main_v2_apply, idx24]
  rfl

/-- The reference's loss of sequence `b`. -/
theorem perSeq_apply (x0 x1 : (⟨S16x4096x256, .f32⟩ : BufTy).Contents (Elt Ideal)) (x2 : (⟨S16, .i32⟩ : BufTy).Contents (Elt Ideal))
    (b : Fin 16) : val_main_v31 (F := Ideal) x0 x1 x2 (ix1 b) = MeanCos.perSeq x0 x1 (x2 (ix1 b)) b := by
  simp only [val_main_v31_apply, val_main_v28_apply, val_main_v27_apply, val_main_c_5_apply, val_main_v30_apply,
    val_main_v29_apply, val_main_cst_6_apply, val_main_v26_apply, val_main_v25_apply, val_main_cst_4_apply,
    val_main_v24_apply, val_main_v23_apply, val_main_v22_apply, val_main_v21_apply, val_main_c_apply,
    val_main_call0_v1_apply, val_main_call0_v0_apply, val_main_cst_7_apply, idx25, cos_apply, mask_apply,
    Ideal.hostDivf_def, Ideal.mulf_def, Ideal.subf_def, Ideal.ofBits_def, Ideal.ofBits_zero_f32, zero_add]
  unfold MeanCos.perSeq
  rw [MeanCos.zero_eq]
  rfl

/-- All sixteen at once. -/
theorem perSeq_eq (x0 x1 : (⟨S16x4096x256, .f32⟩ : BufTy).Contents (Elt Ideal)) (x2 : (⟨S16, .i32⟩ : BufTy).Contents (Elt Ideal)) :
    val_main_v31 (F := Ideal) x0 x1 x2 = fun j => MeanCos.perSeq x0 x1 (x2 (ix1 (j 0))) (j 0) := by
  funext j
  obtain ⟨b, rfl⟩ : ∃ b : Fin 16, j = ix1 b := ⟨j 0, eq_ix1 j⟩
  exact perSeq_apply x0 x1 x2 b

end Cert.ReferenceIdeal.RefValue

end
-- ==== Proof.Counts.lean ====
/-
  What the precondition says of the counts: every count is at most 4096 as a signed number.

  The precondition is a conjunction of three tests, each an "all" over an array; its last conjunct is the "all" of
  `count ≤ 4096` over the sixteen counts. All ones at the one index of the result means every conjunct is one, and an
  "all" that is one means its array is one at every index.
-/
import proofs.«149728_j35150012350738_2_alg».proof.Defs
import proofs.«149728_j35150012350738_2_alg».proof.Proof.Gen.Pre_finite_inputs
import proofs.«149728_j35150012350738_2_alg».proof.Proof.Gen.KernelIdeal
import Idealize.ShloMosaic.Lib.ReduceAll
import Idealize.ShloMosaic.Lib.Affine
import Idealize.ShloMosaic.Lib.ValueIdx

noncomputable section

open Idealize.ShloMosaic Idealize.ShloMosaic.TcCoe Idealize.SL.Sem Idealize.ShloMosaic.ValueIdx

namespace Cert.Proof.Counts

instance : Subsingleton Cert.Pre_finite_inputs.S_.Idx := ⟨fun a b => funext fun d => d.elim0⟩

/-- Under the precondition every count is at most 4096. -/
theorem counts_le (m : (ℓ : Loc Cert.KernelIdeal.nD Cert.KernelIdeal.τ Cert.KernelIdeal.sig) → Buf (Elt Ideal) ℓ)
    (hpre : Cert.Pre_KernelIdeal m) (c : Dev Cert.KernelIdeal.nD) (b : Fin 16) :
    (m ((c.tc : Thread Cert.KernelIdeal.nD Cert.KernelIdeal.τ).loc Cert.KernelIdeal.main_arg2) (ix1 b)).toInt ≤ 4096 := by
  have h := congrFun (hpre c) ix0
  dsimp only [Cert.Pre_finite_inputs.fn] at h
  have h2 := (IntOp.andi_eq_one.mp h).2
  have h3 := Host.reduce_andi_all _ _ _ _ _ h2 (ix1 b)
  have h4 := IntOp.cmpi_sle.mp h3
  exact h4

end Cert.Proof.Counts

end
-- ==== Proof.lean ====
/-
  The mean cosine loss over ragged sequences: the tiled kernel against the plain jnp program, at the extended reals.

  Both programs compute, per sequence, the sum of the cosines of its first `count` rows over `max count 1`,
  subtract it from one where the count is positive, and average the sixteen results (Proof/Spec.lean). The kernel folds
  each dot product in halves, sums the rows tile by tile into a running sum, and clamps the counts to `[0, 4096]` first;
  sums commute and associate on the extended reals (Proof/LibTileSums.lean), and for counts of at most 4096 — the added
  precondition: a count of rows of a 4096-row sequence — the clamp changes nothing (Proof/LibClampWords.lean).

  The modules: Proof/Pieces.lean (what one run of the body leaves), Proof/BodyValues.lean (the body's arithmetic at an
  index), Proof/Accumulate.lean (the running sum over the grid; the output array), Proof/KernelValue.lean (the host lines
  around the region; the kernel program's result), Proof/RefValue.lean (the reference's losses), Proof/Counts.lean (the
  precondition read at a count). The three frames are the generated ones; nothing was rewritten by the ideal pass.
-/
import proofs.«149728_j35150012350738_2_alg».proof.Defs
import proofs.«149728_j35150012350738_2_alg».proof.Proof.Gen.Kernel
import proofs.«149728_j35150012350738_2_alg».proof.Proof.Gen.Kernel.Skeleton
import proofs.«149728_j35150012350738_2_alg».proof.Proof.Gen.Kernel.Launch
import proofs.«149728_j35150012350738_2_alg».proof.Proof.Gen.Kernel.Points
import proofs.«149728_j35150012350738_2_alg».proof.Proof.Gen.Kernel.Frame
import proofs.«149728_j35150012350738_2_alg».proof.Proof.Gen.KernelIdeal
import proofs.«149728_j35150012350738_2_alg».proof.Proof.Gen.KernelIdeal.Skeleton
import proofs.«149728_j35150012350738_2_alg».proof.Proof.Gen.KernelIdeal.Launch
import proofs.«149728_j35150012350738_2_alg».proof.Proof.Gen.KernelIdeal.Points
import proofs.«149728_j35150012350738_2_alg».proof.Proof.Gen.KernelIdeal.Frame
import proofs.«149728_j35150012350738_2_alg».proof.Proof.Gen.ReferenceIdeal
import proofs.«149728_j35150012350738_2_alg».proof.Proof.Gen.Pre_finite_inputs
import proofs.«149728_j35150012350738_2_alg».proof.Proof.Gen.ReferenceIdeal.Run
import proofs.«149728_j35150012350738_2_alg».proof.Proof.Gen.ReferenceIdeal.Read
import proofs.«149728_j35150012350738_2_alg».proof.Proof.KernelValue
import proofs.«149728_j35150012350738_2_alg».proof.Proof.RefValue
import proofs.«149728_j35150012350738_2_alg».proof.Proof.Counts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's result is the shared finish of its sixteen losses. -/
theorem ref_result (x0 x1 : (⟨Cert.ReferenceIdeal.S16x4096x256, .f32⟩ : BufTy).Contents (Elt Ideal))
    (x2 : (⟨Cert.ReferenceIdeal.S16, .i32⟩ : BufTy).Contents (Elt Ideal)) :
    Cert.ReferenceIdeal.Read.val_main_v34 (F := Ideal) x0 x1 x2
      = MeanCos.finish Cert.ReferenceIdeal.Gen.bcast_S_S1 Cert.ReferenceIdeal.Gen.reducesTo_S16_S_d0 Cert.ReferenceIdeal.Gen.h_S_
          (Cert.ReferenceIdeal.Read.val_main_v31 (F := Ideal) x0 x1 x2) := rfl

/-- At the extended reals the two programs end with the same number: the kernel's clamped-form losses at the clamped
    counts are the reference's losses at the counts, for counts of at most 4096; the shared last steps follow. -/
theorem algebraic : Cert.algebraic_KernelIdeal_ReferenceIdeal := by
  intro m ρ m' ρ' hpre hagree
  refine ⟨fun c => MeanCos.finish Cert.KernelIdeal.Gen.bcast_S_S1 Cert.KernelIdeal.Gen.reducesTo_S16_S_d0 Cert.KernelIdeal.Gen.h_S_
      (fun j : Cert.KernelIdeal.S16.Idx => MeanCos.perSeqClamped
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (ClampWords.clamp 4096#32 (m ((c.tc : Thread Cert.KernelIdeal.nD Cert.KernelIdeal.τ).loc Cert.KernelIdeal.main_arg2) (ix1 (j 0)))) (j 0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, ref_result, Cert.ReferenceIdeal.RefValue.perSeq_eq,
    (hagree c).1, (hagree c).2.1, (hagree c).2.2]
  refine congrArg (MeanCos.finish _ _ _) (funext fun j => ?_)
  exact (MeanCos.perSeqClamped_clamp _ _ _ (Counts.counts_le m hpre c (j 0)) (j 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
